-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_10" .f32 0x3DCCCCCD#32 ((1 / 10 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x256 : Shape := ⟨3, ![64, 512, 256]⟩
abbrev S1024x256 : Shape := ⟨2, ![1024, 256]⟩
abbrev S_ : Shape := ⟨0, ![]⟩

class Facts : Prop where
  bcast_S_S64x512x256 : S_.BroadcastsInDim S64x512x256 (![] : Fin 0 → Fin S64x512x256.rank)
  reducesTo_S64x512x256_S_d0_1_2 : S64x512x256.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S64x512x256 .f32) (main_arg1 : FVec F S1024x256 .f32) : IVec S_ 1 :=
  let main_v0 : FVec F S64x512x256 .f32 := Host.absf main_arg0
  let main_cst : FVec F S_ .f32 := constant S_ .f32 0x7F800000#32
  let main_v1 : FVec F S64x512x256 .f32 := broadcastInDim S64x512x256 ![] bcast_S_S64x512x256 main_cst
  let main_v2 : IVec S64x512x256 1 := cmpf .olt main_v0 main_v1
  let main_c : IVec S_ 1 := constantI S_ 1 1#1
  let main_v3 : IVec S_ 1 := (fun x v => Host.reduce IntOp.andi x v reducesTo_S64x512x256_S_d0_1_2 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S64x512x256 : Shape := ⟨3, ![64, 512, 256]⟩
abbrev S1024x256 : Shape := ⟨2, ![1024, 256]⟩
abbrev S32768x256 : Shape := ⟨2, ![32768, 256]⟩
abbrev S256x1024 : Shape := ⟨2, ![256, 1024]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S32768x1024 : Shape := ⟨2, ![32768, 1024]⟩
abbrev S1024x1024 : Shape := ⟨2, ![1024, 1024]⟩
abbrev S64x512x1024 : Shape := ⟨3, ![64, 512, 1024]⟩

abbrev nBuf : Space → Nat
  | .hbm => 12
  | .vmem => 6
  | .smem => 0
  | _ => 0

abbrev bufTy : (tb : Table) → Fin (tcTables nBuf tb) → BufTy
  | .hbm, ⟨0, _⟩ => ⟨S64x512x256, .f32⟩
  | .hbm, ⟨1, _⟩ => ⟨S1024x256, .f32⟩
  | .hbm, ⟨2, _⟩ => ⟨S32768x256, .f32⟩
  | .hbm, ⟨3, _⟩ => ⟨S256x1024, .f32⟩
  | .hbm, ⟨4, _⟩ => ⟨S256x1024, .bf16⟩
  | .hbm, ⟨5, _⟩ => ⟨S1024x256, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S1x1024, .f32⟩
  | .hbm, ⟨10, _⟩ => ⟨S32768x1024, .f32⟩
  | .hbm, ⟨11, _⟩ => ⟨S64x512x1024, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S64x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x512x256_S32768x256 : S64x512x256.ShapeCasts S32768x256
  transposes_S1024x256_S256x1024_1_0 : S1024x256.Transposes [1, 0] S256x1024
  bitsLt_bf16_f32 : FTy.bits .bf16 < FTy.bits .f32
  reducesTo_S1024x256_S1024_d1 : S1024x256.ReducesTo [1] S1024
  h_S_ : 0 < S_.numel
  bcast_S1024_S1024x1_0 : S1024.BroadcastsInDim S1024x1 (![0] : Fin 1 → Fin S1024x1.rank)
  transposes_S1024x1_S1x1024_1_0 : S1024x1.Transposes [1, 0] S1x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S1024x256_S1024 : S1024x256.Reduces [1] S1024
  shapeCasts_S1024_S1024x1 : S1024.ShapeCasts S1024x1
  broadcasts_S1024x1_S1024x1024 : S1024x1.Broadcasts S1024x1024
  broadcasts_S1x1024_S1024x1024 : S1x1024.Broadcasts S1024x1024
  reduces_S1024x1024_S1024 : S1024x1024.Reduces [1] S1024
  inb_S1024x1024_S1024x1024_0_0 : ∀ a, (![0, 0] : Fin 2 → Nat) a + S1024x1024.size a ≤ S1024x1024.size a
  h_S1024x1024 : 0 < S1024x1024.numel
  shapeCasts_S32768x1024_S64x512x1024 : S32768x1024.ShapeCasts S64x512x1024
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S32768x256.size a
  hwx0_0 : ∀ i : grid0.Coords, EltTy.bits .f32 = 32 ∨ (Rect.block (s := S32768x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x256 : Shape := ⟨3, ![64, 512, 256]⟩
abbrev S1024x256 : Shape := ⟨2, ![1024, 256]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S64x512x1024 : Shape := ⟨3, ![64, 512, 1024]⟩

abbrev nBuf : Space → Nat
  | .hbm => 37
  | .vmem => 0
  | .smem => 0
  | _ => 0

abbrev bufTy : (tb : Table) → Fin (tcTables nBuf tb) → BufTy
  | .hbm, ⟨0, _⟩ => ⟨S64x512x256, .f32⟩
  | .hbm, ⟨1, _⟩ => ⟨S1024x256, .f32⟩
  | .hbm, ⟨2, _⟩ => ⟨S32768x256, .f32⟩
  | .hbm, ⟨3, _⟩ => ⟨S32768x256, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S1024x256, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S64x512x1024, .f32⟩
  | _, _ => ⟨S64x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  shapeCasts_S64x512x256_S32768x256 : S64x512x256.ShapeCasts S32768x256
  reducesTo_S32768x256_S32768_d1 : S32768x256.ReducesTo [1] S32768
  h_S_ : 0 < S_.numel
  bcast_S32768_S32768x1_0 : S32768.BroadcastsInDim S32768x1 (![0] : Fin 1 → Fin S32768x1.rank)
  reducesTo_S1024x256_S1024_d1 : S1024x256.ReducesTo [1] S1024
  bcast_S1024_S1x1024_1 : S1024.BroadcastsInDim S1x1024 (![1] : Fin 1 → Fin S1x1024.rank)
  bcast_S32768x1_S32768x1024_0_1 : S32768x1.BroadcastsInDim S32768x1024 (![0, 1] : Fin 2 → Fin S32768x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  reducesTo_S32768x1024_S32768_d1 : S32768x1024.ReducesTo [1] S32768
  shapeCasts_S32768x1024_S64x512x1024 : S32768x1024.ShapeCasts S64x512x1024
  dot_S32768x256_S1024x256_S32768x1024_1_1_0_0_n_n_wf : DotDims.WF S32768x256 S1024x256 S32768x1024 [1] [1] [0] [0] [] []

variable [Facts₀]

def dot_S32768x256_S1024x256_S32768x1024_1_1_0_0_n_n : DotDims S32768x256 S1024x256 S32768x1024 where
  lhsContracting := [1]
  rhsContracting := [1]
  lhsNonContracting := [0]
  rhsNonContracting := [0]
  lhsBatch := []
  rhsBatch := []
  wf := dot_S32768x256_S1024x256_S32768x1024_1_1_0_0_n_n_wf

class Facts : Prop extends Facts₀ where

variable [Facts]
-- ==== Proof.Scalar.lean ====
/-
  The scalar mathematics of the soft assignment, on the extended reals.

  With d ≥ 0 the squared distance of a row to a center and α = 10, the Student-t similarity is
  (1 + d/α)^(-(α+1)/2) = (1 + d/10)^(-11/2).  One side forms u = 1 + d · (1/10), the eleventh power
  u¹¹ = u⁸ · u² · u by repeated squaring, and takes its reciprocal square root; the other side raises
  1 + d/10 to the real power -5.5.  For a real u ≥ 1 both are u^(-11/2); at d = +∞ both are 0.  The
  squared distance is a maximum with zero, so it is never below zero and the two agree on every
  extended real the programs can reach.
-/
import Idealize.ShloMosaic.PureOps.Ideal
import Idealize.ShloMosaic.PureOps.Ideal.Laws
import Idealize.ShloMosaic.Lib.ValueIdx

noncomputable section

namespace Cert.Som

open Idealize.ShloMosaic

/-! ## The float constants the two programs spell, as the reals they denote -/

theorem ofBits_ten : Ideal.ofBits .f32 0x41200000#32 = ((10 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_neg_eleven_halves : Ideal.ofBits .f32 0xC0B00000#32 = ((-(11 / 2) : ℝ) : EReal) := by
  simp [Ideal.ofBits, Ideal.ieee, -EReal.coe_mul]; norm_num

/-! ## The similarity, two ways -/

/-- u¹¹ by repeated squaring, then the reciprocal square root: u = 1 + d · (1/10). -/
def simSq (d : EReal) : EReal :=
  Ideal.rsqrt
    (((((1 : ℝ) : EReal) + d * ((1 / 10 : ℝ) : EReal)) * (((1 : ℝ) : EReal) + d * ((1 / 10 : ℝ) : EReal))
        * ((((1 : ℝ) : EReal) + d * ((1 / 10 : ℝ) : EReal)) * (((1 : ℝ) : EReal) + d * ((1 / 10 : ℝ) : EReal)))
        * ((((1 : ℝ) : EReal) + d * ((1 / 10 : ℝ) : EReal)) * (((1 : ℝ) : EReal) + d * ((1 / 10 : ℝ) : EReal))
          * ((((1 : ℝ) : EReal) + d * ((1 / 10 : ℝ) : EReal)) * (((1 : ℝ) : EReal) + d * ((1 / 10 : ℝ) : EReal)))))
      * ((((1 : ℝ) : EReal) + d * ((1 / 10 : ℝ) : EReal)) * (((1 : ℝ) : EReal) + d * ((1 / 10 : ℝ) : EReal)))
      * (((1 : ℝ) : EReal) + d * ((1 / 10 : ℝ) : EReal)))

/-- (1 + d/10) to the power -11/2. -/
def simPow (d : EReal) : EReal :=
  Ideal.pow (((1 : ℝ) : EReal) + Ideal.div d ((10 : ℝ) : EReal)) ((-(11 / 2) : ℝ) : EReal)

/-- For a real u > 0: 1 / √(u¹¹) = u^(-11/2). -/
theorem real_rsqrt_pow11 (u : ℝ) (hu : 0 < u) :
    (Real.sqrt (u * u * (u * u) * (u * u * (u * u)) * (u * u) * u))⁻¹ = Real.rpow u (-(11 / 2)) := by
  have h11 : u * u * (u * u) * (u * u * (u * u)) * (u * u) * u = u ^ (11 : ℕ) := by ring
  rw [h11, Real.sqrt_eq_rpow, ← Real.rpow_natCast, ← Real.rpow_mul hu.le]
  show _ = u ^ (-(11 / 2) : ℝ)
  rw [Real.rpow_neg hu.le]
  norm_num

/-- On every extended real at or above zero the two forms of the similarity agree. -/
theorem simSq_eq_simPow (d : EReal) (hd : 0 ≤ d) : simSq d = simPow d := by
  induction d using EReal.rec with
  | bot => exact absurd hd (by simp)
  | top =>
    have h1 : (⊤ : EReal) * ((1 / 10 : ℝ) : EReal) = ⊤ := EReal.top_mul_coe_of_pos (by norm_num)
    have h2 : ((1 : ℝ) : EReal) + ⊤ = ⊤ := EReal.add_top_of_ne_bot (EReal.coe_ne_bot 1)
    unfold simSq simPow
    rw [Ideal.div_coe (by norm_num : (10 : ℝ) ≠ 0), h1, h2]
    simp only [EReal.top_mul_top, Ideal.rsqrt_top, Ideal.pow_top]
    have hn : ¬ (0 : EReal) < ((-(11 / 2) : ℝ) : EReal) := by
      rw [not_lt]; exact_mod_cast (by norm_num : (-(11 / 2) : ℝ) ≤ 0)
    have hz : ¬ ((-(11 / 2) : ℝ) : EReal) = 0 := by
      exact_mod_cast (by norm_num : (-(11 / 2) : ℝ) ≠ 0)
    rw [if_neg hn, if_neg hz]
  | coe r =>
    have hr : 0 ≤ r := by exact_mod_cast hd
    have hu : 0 < 1 + r * (1 / 10) := by positivity
    unfold simSq simPow
    rw [Ideal.div_coe (by norm_num : (10 : ℝ) ≠ 0)]
    simp only [← EReal.coe_mul, ← EReal.coe_add]
    rw [Ideal.pow_coe_coe, Ideal.rsqrt_coe]
    have hpos : 0 < (1 + r * (1 / 10)) * (1 + r * (1 / 10)) * ((1 + r * (1 / 10)) * (1 + r * (1 / 10)))
        * ((1 + r * (1 / 10)) * (1 + r * (1 / 10)) * ((1 + r * (1 / 10)) * (1 + r * (1 / 10))))
        * ((1 + r * (1 / 10)) * (1 + r * (1 / 10))) * (1 + r * (1 / 10)) := by positivity
    rw [if_neg (not_lt.mpr hpos.le), if_neg hpos.ne', real_rsqrt_pow11 _ hu]

end Cert.Som

end
-- ==== Proof.Spec.lean ====
/-
  The soft assignment as ONE function of the flattened rows and the centers, index by index.

  For a row z (256 entries) and a center c (256 entries) with squared norm ‖c‖², the squared distance is
  d(z, c) = max (‖z‖² + ‖c‖² - 2 · ⟨z, c⟩, 0), the similarity is (1 + d/10)^(-11/2), and the soft
  assignment of the row to center q is its similarity to q divided by the sum of its similarities to
  all 1024 centers.
-/
import proofs.«147267_j32899449487560_2_alg».proof.Proof.Scalar

noncomputable section

namespace Cert.Som

open Idealize.ShloMosaic Idealize.ShloMosaic.ValueIdx

/-- The squared distance of a row to a center whose squared norm is `csq`, never below zero. -/
def dsq (zrow crow : Fin 256 → EReal) (csq : EReal) : EReal :=
  max ((∑ j : Fin 256, zrow j * zrow j) + csq - Ideal.ofBits .f32 0x40000000#32 * ∑ j : Fin 256, zrow j * crow j) 0

theorem dsq_nonneg (zrow crow : Fin 256 → EReal) (csq : EReal) : 0 ≤ dsq zrow crow csq := le_max_right _ _

/-- A row's soft assignment to center `q`: its similarity to `q` over the sum of its similarities to every center. -/
def softRow (zrow : Fin 256 → EReal) (C : Fin 1024 → Fin 256 → EReal) (csq : Fin 1024 → EReal) (q : Fin 1024) : EReal :=
  Ideal.div (simSq (dsq zrow (C q) (csq q))) (∑ k : Fin 1024, simSq (dsq zrow (C k) (csq k)))

/-- The whole result before its last reshape: entry (n, q) is row n's soft assignment to center q, the centers'
    squared norms the sums of their squares. -/
def softAssign (zf : (⟨2, ![32768, 256]⟩ : Shape).Idx → EReal) (cn : (⟨2, ![1024, 256]⟩ : Shape).Idx → EReal) :
    (⟨2, ![32768, 1024]⟩ : Shape).Idx → EReal :=
  fun i => softRow (fun j => zf (ix2 (i 0) j)) (fun k j => cn (ix2 k j)) (fun k => ∑ j : Fin 256, cn (ix2 k j) * cn (ix2 k j)) (i 1)

end Cert.Som

end
-- ==== Proof.RefValue.lean ====
/-
  The reference computes the soft assignment: its operations, read one at a time at an index, compose to
  the similarity in its power form over the squared distance, and the row normalisation divides by the sum
  over the 1024 centers.  The power form is the repeated-squaring form wherever the squared distance is at or
  above zero, which a maximum with zero always is.
-/
import proofs.«147267_j32899449487560_2_alg».proof.Proof.Gen.ReferenceIdeal.Read
import proofs.«147267_j32899449487560_2_alg».proof.Proof.Spec

noncomputable section

namespace Cert.Som.Ref

open Idealize.ShloMosaic Idealize.ShloMosaic.ValueIdx Cert.ReferenceIdeal Cert.ReferenceIdeal.Read Cert.Som

variable (x0 : (⟨S64x512x256, .f32⟩ : BufTy).Contents (Elt Ideal)) (x1 : (⟨S1024x256, .f32⟩ : BufTy).Contents (Elt Ideal))

/-- The reference's similarity of row `n` to center `q`, in its power form over the squared distance. -/
theorem sim_apply (n : Fin 32768) (q : Fin 1024) :
    val_main_v21 (F := Ideal) x0 x1 (ix2 n q)
      = simPow (dsq (fun j => val_main_v0 (F := Ideal) x0 (ix2 n j)) (fun j => x1 (ix2 q j))
          (∑ j : Fin 256, x1 (ix2 q j) * x1 (ix2 q j))) := by
  have e2 : ∀ k : Fin 256, idx_main_v2 (idx_main_v3 (idx_main_v8 (ix2 n q))) k = ix2 n k := fun k =>
    funext fun a => Fin.ext (by match a with | ⟨0, _⟩ => rfl | ⟨1, _⟩ => rfl)
  have e5 : ∀ k : Fin 256, idx_main_v5 (idx_main_v6 (idx_main_v9 (ix2 n q))) k = ix2 q k := fun k =>
    funext fun a => Fin.ext (by match a with | ⟨0, _⟩ => rfl | ⟨1, _⟩ => rfl)
  have el : ∀ k : Fin 256, lidx_main_v7 (ix2 n q) k = ix2 n k := fun k =>
    funext fun a => Fin.ext (by match a with | ⟨0, _⟩ => rfl | ⟨1, _⟩ => rfl)
  have er : ∀ k : Fin 256, ridx_main_v7 (ix2 n q) k = ix2 q k := fun k =>
    funext fun a => Fin.ext (by match a with | ⟨0, _⟩ => rfl | ⟨1, _⟩ => rfl)
  simp only [val_main_v21_apply, val_main_v20_apply, val_main_cst_5_apply, val_main_v19_apply, val_main_v18_apply,
    val_main_cst_4_apply, val_main_v17_apply, val_main_v16_apply, val_main_cst_3_apply, val_main_v15_apply,
    val_main_v14_apply, val_main_cst_2_apply, val_main_v13_apply, val_main_v12_apply, val_main_v11_apply,
    val_main_cst_1_apply, val_main_v7_apply, val_main_v10_apply, val_main_v9_apply, val_main_v6_apply,
    val_main_v5_apply, val_main_cst_0_apply, val_main_v8_apply, val_main_v3_apply, val_main_v2_apply,
    val_main_cst_apply, val_main_v1_apply, val_main_v4_apply, e2, e5, el, er,
    Ideal.hostPowf_def, Ideal.addf_def, Ideal.subf_def, Ideal.mulf_def, Ideal.maximumf_def, Ideal.hostDivf_def,
    Ideal.ofBits_def, Ideal.ofBits_zero_f32, zero_add, ofBits_one, ofBits_ten, ofBits_neg_eleven_halves]
  rfl

/-- The reference's result before its last reshape is the soft assignment of the flattened rows. -/
theorem softAssign_eq : val_main_v25 (F := Ideal) x0 x1 = softAssign (val_main_v0 (F := Ideal) x0) x1 := by
  funext i
  obtain ⟨n, q, rfl⟩ : ∃ (n : Fin 32768) (q : Fin 1024), i = ix2 n q := ⟨i 0, i 1, eq_ix2 i⟩
  have e22 : ∀ k : Fin 1024, idx_main_v22 (idx_main_v23 (idx_main_v24 (ix2 n q))) k = ix2 n k := fun k =>
    funext fun a => Fin.ext (by match a with | ⟨0, _⟩ => rfl | ⟨1, _⟩ => rfl)
  rw [val_main_v25_apply, val_main_v24_apply, val_main_v23_apply, val_main_v22_apply, val_main_cst_6_apply]
  simp only [e22, sim_apply, Ideal.hostDivf_def, Ideal.ofBits_def, Ideal.ofBits_zero_f32, zero_add,
    ← simSq_eq_simPow _ (dsq_nonneg _ _ _)]
  rfl

end Cert.Som.Ref

end
-- ==== Proof.KernelPayload.lean ====
/-
  What the kernel body stores, read at one element of its 1024 × 1024 block.

  From a block of 1024 rows z (1024 × 256), the transposed centers ct (256 × 1024) and the centers' squared
  norms csq (1 × 1024), entry (p, q) of the stored block is row p's soft assignment to center q: the row's
  squared norm is the sum over its 256 lanes, the cross term the matrix product's sum over the 256 contracted
  entries, the squared distance their combination clipped at zero, the similarity its repeated-squaring form,
  and the normalisation the sum of the similarities over the 1024 lanes of the row.
-/
import proofs.«147267_j32899449487560_2_alg».proof.Proof.Gen.KernelIdeal.Skeleton
import proofs.«147267_j32899449487560_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.Som.Kern

open Idealize.ShloMosaic Idealize.ShloMosaic.ValueIdx Cert.KernelIdeal Cert.KernelIdeal.Gen Cert.Som

/-- The kernel's named reciprocal denotes the rational 1/10. -/
theorem inv_ten : Named.named (F := Ideal) Cert.KernelIdeal.κ "inv_10" (φ := .f32) 0x3DCCCCCD#32 = ((1 / 10 : ℝ) : EReal) :=
  IdealRules.named_const.ideal_named_scalar _ _ _ _ rfl

theorem rsqrt_apply {s : Shape} {φ : FTy} (a : FVec Ideal s φ) (i : s.Idx) : rsqrt a i = Ideal.rsqrt (a i) := rfl

/-- A sum over the 256 lanes of a row, kept as a column: entry (p, ·) is the sum of row p. -/
theorem rowSum256_apply (v : FVec Ideal S1024x256 .f32) (p : Fin 1024) (u : Fin 1) :
    shapeCast S1024x1 (multiReduction .add [1] S1024 v 0x00000000#32 reduces_S1024x256_S1024 (.inl rfl) rfl)
        shapeCasts_S1024_S1024x1 (ix2 p u)
      = ∑ j : Fin 256, v (ix2 p j) := by
  refine (shapeCast_apply _ shapeCasts_S1024_S1024x1 (ix2 p u) (ix1 p) ?_).trans ?_
  · rw [Shape.rowMajor_val_one, Shape.rowMajor_val_two]
    show p.val = p.val * 1 + u.val
    omega
  · refine (Ideal.multiReduction_add_single v 0x00000000#32 reduces_S1024x256_S1024 (.inl rfl) rfl (ix1 p)).trans ?_
    refine Finset.sum_congr rfl fun j _ => congrArg v ?_
    funext a; apply Fin.ext
    match a with
    | ⟨0, _⟩ => rfl
    | ⟨1, _⟩ => rfl

/-- A sum over the 1024 lanes of a row, kept as a column. -/
theorem rowSum1024_apply (v : FVec Ideal S1024x1024 .f32) (p : Fin 1024) (u : Fin 1) :
    shapeCast S1024x1 (multiReduction .add [1] S1024 v 0x00000000#32 reduces_S1024x1024_S1024 (.inl rfl) rfl)
        shapeCasts_S1024_S1024x1 (ix2 p u)
      = ∑ k : Fin 1024, v (ix2 p k) := by
  refine (shapeCast_apply _ shapeCasts_S1024_S1024x1 (ix2 p u) (ix1 p) ?_).trans ?_
  · rw [Shape.rowMajor_val_one, Shape.rowMajor_val_two]
    show p.val = p.val * 1 + u.val
    omega
  · refine (Ideal.multiReduction_add_single v 0x00000000#32 reduces_S1024x1024_S1024 (.inl rfl) rfl (ix1 p)).trans ?_
    refine Finset.sum_congr rfl fun j _ => congrArg v ?_
    funext a; apply Fin.ext
    match a with
    | ⟨0, _⟩ => rfl
    | ⟨1, _⟩ => rfl

/-- A column spread over the 1024 lanes reads, at (p, q), the column's entry p. -/
theorem spreadCol_apply (w : FVec Ideal S1024x1 .f32) (p q : Fin 1024) :
    broadcastTo S1024x1024 w broadcasts_S1024x1_S1024x1024 (ix2 p q) = w (ix2 p (0 : Fin 1)) := by
  refine broadcastTo_apply w broadcasts_S1024x1_S1024x1024 (ix2 p q) (ix2 p (0 : Fin 1)) fun a => ?_
  match a with
  | ⟨0, _⟩ =>
    show p.val = if (1024 : ℕ) = 1 then 0 else p.val
    rw [if_neg (by decide)]
  | ⟨1, _⟩ =>
    show (0 : ℕ) = if (1 : ℕ) = 1 then 0 else q.val
    rw [if_pos rfl]

/-- A row spread over the 1024 rows reads, at (p, q), the row's entry q. -/
theorem spreadRow_apply (w : FVec Ideal S1x1024 .f32) (p q : Fin 1024) :
    broadcastTo S1024x1024 w broadcasts_S1x1024_S1024x1024 (ix2 p q) = w (ix2 (0 : Fin 1) q) :=
  broadcastTo_1b_ab_apply w broadcasts_S1x1024_S1024x1024 p q

abbrev mmDims := dot_S1024x256_S256x1024_S1024x1024_1_0_0_1_n_n

theorem mm_lhs0 (i : S1024x1024.Idx) (r : mmDims.contr.Idx) : (mmDims.lhsIdx i r 0).val = (i 0).val := by
  unfold DotDims.lhsIdx
  rw [dif_neg (show ¬(0 : Fin S1024x256.rank) ∈ mmDims.lhsBatch by decide),
    dif_pos (show (0 : Fin S1024x256.rank) ∈ mmDims.lhsNonContracting by decide)]
  rfl
theorem mm_lhs1 (i : S1024x1024.Idx) (r : mmDims.contr.Idx) : (mmDims.lhsIdx i r 1).val = (r ⟨0, by decide⟩).val :=
  mmDims.lhsIdx_val_of_single rfl i r
theorem mm_rhs0 (i : S1024x1024.Idx) (r : mmDims.contr.Idx) : (mmDims.rhsIdx i r 0).val = (r ⟨0, by decide⟩).val :=
  mmDims.rhsIdx_val_of_single rfl i r
theorem mm_rhs1 (i : S1024x1024.Idx) (r : mmDims.contr.Idx) : (mmDims.rhsIdx i r 1).val = (i 1).val := by
  unfold DotDims.rhsIdx
  rw [dif_neg (show ¬(1 : Fin S256x1024.rank) ∈ mmDims.rhsBatch by decide),
    dif_pos (show (1 : Fin S256x1024.rank) ∈ mmDims.rhsNonContracting by decide)]
  rfl

/-- The matrix product into a zero accumulator, at (p, q): the sum over the 256 contracted entries. -/
theorem mm_apply (a : FVec Ideal S1024x256 .bf16) (b : FVec Ideal S256x1024 .bf16) (p q : Fin 1024) :
    matmul mmDims none a b (constant S1024x1024 .f32 0x00000000#32) (ix2 p q)
      = ∑ j : Fin 256, a (ix2 p j) * b (ix2 j q) := by
  refine (Ideal.matmul_constant_zero_apply mmDims none a b (ix2 p q)).trans ?_
  rw [← Equiv.sum_comp (contrEquiv1 mmDims 256 rfl rfl).symm]
  refine Finset.sum_congr rfl fun k _ => ?_
  have hk := contrEquiv1_symm_val mmDims 256 rfl rfl k
  have el : mmDims.lhsIdx (ix2 p q) ((contrEquiv1 mmDims 256 rfl rfl).symm k) = ix2 p k := funext fun c => Fin.ext (by
    match c with
    | ⟨0, _⟩ => exact mm_lhs0 _ _
    | ⟨1, _⟩ => exact (mm_lhs1 _ _).trans hk)
  have er : mmDims.rhsIdx (ix2 p q) ((contrEquiv1 mmDims 256 rfl rfl).symm k) = ix2 k q := funext fun c => Fin.ext (by
    match c with
    | ⟨0, _⟩ => exact (mm_rhs0 _ _).trans hk
    | ⟨1, _⟩ => exact mm_rhs1 _ _)
  rw [el, er]

/-- The block of squared distances the body forms from its three loaded blocks. -/
def distV (x0 : FVec Ideal S1024x256 .f32) (x1 : FVec Ideal S256x1024 .bf16) (x2 : FVec Ideal S1x1024 .f32) :
    FVec Ideal S1024x1024 .f32 :=
  maximumf
    (subf
      (addf
        (broadcastTo S1024x1024
          (shapeCast S1024x1 (multiReduction .add [1] S1024 (mulf x0 x0) 0x00000000#32 reduces_S1024x256_S1024 (.inl rfl) rfl)
            shapeCasts_S1024_S1024x1)
          broadcasts_S1024x1_S1024x1024)
        (broadcastTo S1024x1024 x2 broadcasts_S1x1024_S1024x1024))
      (mulf (broadcast S1024x1024 (Scalar.ofBits (F := Ideal) .f32 0x40000000#32))
        (matmul mmDims none (truncf .bf16 x0 bitsLt_bf16_f32) x1 (constant S1024x1024 .f32 0x00000000#32))))
    (broadcast S1024x1024 (Scalar.ofBits (F := Ideal) .f32 0x00000000#32))

/-- The squared distance at (p, q): row p against column q of the transposed centers. -/
theorem distV_apply (x0 : FVec Ideal S1024x256 .f32) (x1 : FVec Ideal S256x1024 .bf16) (x2 : FVec Ideal S1x1024 .f32)
    (p q : Fin 1024) :
    distV x0 x1 x2 (ix2 p q) = dsq (fun j => x0 (ix2 p j)) (fun j => x1 (ix2 j q)) (x2 (ix2 (0 : Fin 1) q)) := by
  unfold distV dsq
  rw [maximumf_apply, subf_apply, addf_apply, mulf_apply, broadcast_apply, broadcast_apply, spreadCol_apply,
    rowSum256_apply, spreadRow_apply, mm_apply]
  simp only [mulf_apply, truncf_apply, Ideal.ofBits_def, Ideal.ofBits_zero_f32]

/-- The block of similarities: u = 1 + d · (1/10) on the squared distances, u¹¹ by repeated squaring, its
    reciprocal square root. -/
def simV (d : FVec Ideal S1024x1024 .f32) : FVec Ideal S1024x1024 .f32 :=
  rsqrt
    (mulf
      (mulf
        (mulf
          (mulf
            (mulf (addf (broadcast S1024x1024 (Scalar.ofBits (F := Ideal) .f32 0x3F800000#32))
                (mulf d (broadcast S1024x1024 (Named.named (F := Ideal) Cert.KernelIdeal.κ "inv_10" (φ := .f32) 0x3DCCCCCD#32))))
              (addf (broadcast S1024x1024 (Scalar.ofBits (F := Ideal) .f32 0x3F800000#32))
                (mulf d (broadcast S1024x1024 (Named.named (F := Ideal) Cert.KernelIdeal.κ "inv_10" (φ := .f32) 0x3DCCCCCD#32)))))
            (mulf (addf (broadcast S1024x1024 (Scalar.ofBits (F := Ideal) .f32 0x3F800000#32))
                (mulf d (broadcast S1024x1024 (Named.named (F := Ideal) Cert.KernelIdeal.κ "inv_10" (φ := .f32) 0x3DCCCCCD#32))))
              (addf (broadcast S1024x1024 (Scalar.ofBits (F := Ideal) .f32 0x3F800000#32))
                (mulf d (broadcast S1024x1024 (Named.named (F := Ideal) Cert.KernelIdeal.κ "inv_10" (φ := .f32) 0x3DCCCCCD#32))))))
          (mulf
            (mulf (addf (broadcast S1024x1024 (Scalar.ofBits (F := Ideal) .f32 0x3F800000#32))
                (mulf d (broadcast S1024x1024 (Named.named (F := Ideal) Cert.KernelIdeal.κ "inv_10" (φ := .f32) 0x3DCCCCCD#32))))
              (addf (broadcast S1024x1024 (Scalar.ofBits (F := Ideal) .f32 0x3F800000#32))
                (mulf d (broadcast S1024x1024 (Named.named (F := Ideal) Cert.KernelIdeal.κ "inv_10" (φ := .f32) 0x3DCCCCCD#32)))))
            (mulf (addf (broadcast S1024x1024 (Scalar.ofBits (F := Ideal) .f32 0x3F800000#32))
                (mulf d (broadcast S1024x1024 (Named.named (F := Ideal) Cert.KernelIdeal.κ "inv_10" (φ := .f32) 0x3DCCCCCD#32))))
              (addf (broadcast S1024x1024 (Scalar.ofBits (F := Ideal) .f32 0x3F800000#32))
                (mulf d (broadcast S1024x1024 (Named.named (F := Ideal) Cert.KernelIdeal.κ "inv_10" (φ := .f32) 0x3DCCCCCD#32)))))))
        (mulf (addf (broadcast S1024x1024 (Scalar.ofBits (F := Ideal) .f32 0x3F800000#32))
            (mulf d (broadcast S1024x1024 (Named.named (F := Ideal) Cert.KernelIdeal.κ "inv_10" (φ := .f32) 0x3DCCCCCD#32))))
          (addf (broadcast S1024x1024 (Scalar.ofBits (F := Ideal) .f32 0x3F800000#32))
            (mulf d (broadcast S1024x1024 (Named.named (F := Ideal) Cert.KernelIdeal.κ "inv_10" (φ := .f32) 0x3DCCCCCD#32))))))
      (addf (broadcast S1024x1024 (Scalar.ofBits (F := Ideal) .f32 0x3F800000#32))
        (mulf d (broadcast S1024x1024 (Named.named (F := Ideal) Cert.KernelIdeal.κ "inv_10" (φ := .f32) 0x3DCCCCCD#32)))))

/-- At every element the block of similarities is the repeated-squaring similarity of the element. -/
theorem simV_apply (d : FVec Ideal S1024x1024 .f32) (i : S1024x1024.Idx) : simV d i = simSq (d i) := by
  unfold simV simSq
  simp only [rsqrt_apply, mulf_apply, addf_apply, broadcast_apply, inv_ten]
  rw [show (Scalar.ofBits (F := Ideal) .f32 0x3F800000#32 : EReal) = ((1 : ℝ) : EReal) from ofBits_one]

/-- The stored block is the similarities divided, row by row, by their sums over the 1024 lanes. -/
theorem pay_eq (x0 : FVec Ideal S1024x256 .f32) (x1 : FVec Ideal S256x1024 .bf16) (x2 : FVec Ideal S1x1024 .f32) :
    k0_pay1 (F := Ideal) x0 x1 x2
      = divf (simV (distV x0 x1 x2))
          (broadcastTo S1024x1024
            (shapeCast S1024x1
              (multiReduction .add [1] S1024 (simV (distV x0 x1 x2)) 0x00000000#32 reduces_S1024x1024_S1024 (.inl rfl) rfl)
              shapeCasts_S1024_S1024x1)
            broadcasts_S1024x1_S1024x1024) := by
  unfold k0_pay1 simV distV
  simp only [shapeCast_self]

/-- Entry (p, q) of the stored block is row p's soft assignment to center q, the centers read from the
    transposed block and their squared norms from the row of norms. -/
theorem pay_apply (x0 : FVec Ideal S1024x256 .f32) (x1 : FVec Ideal S256x1024 .bf16) (x2 : FVec Ideal S1x1024 .f32)
    (p q : Fin 1024) :
    k0_pay1 (F := Ideal) x0 x1 x2 (ix2 p q)
      = softRow (fun j => x0 (ix2 p j)) (fun k j => x1 (ix2 j k)) (fun k => x2 (ix2 (0 : Fin 1) k)) q := by
  rw [pay_eq, divf_apply, spreadCol_apply, rowSum1024_apply]
  simp only [simV_apply, distV_apply]
  rfl

end Cert.Som.Kern

end
-- ==== Proof.KernelValue.lean ====
/-
  The kernel's result array, read off its run.

  Before the grid the host flattens the rows (64 · 512 = 32768 rows of 256), transposes the centers (256 × 1024)
  and forms the row of the centers' squared norms (1 × 1024).  Grid point t stages rows 1024·t … 1024·t + 1023, the
  whole transposed centers and the whole row of norms, and writes back rows 1024·t … 1024·t + 1023 of the
  32768 × 1024 output; what it writes is the soft assignment of those rows.  The 32 blocks of rows tile the
  output, so the array ends holding the soft assignment of every row, and the host's last reshape gives the
  64 × 512 × 1024 result.
-/
import proofs.«147267_j32899449487560_2_alg».proof.Proof.Gen.KernelIdeal.Frame
import proofs.«147267_j32899449487560_2_alg».proof.Proof.KernelPayload
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Som.KValue

open Cert.KernelIdeal Cert.KernelIdeal.Gen Cert.Som

variable (m : (ℓ : Loc nD τ sig) → Buf (Elt Ideal) ℓ) (ρ : Dev nD → PrngReg)

/-- The two argument arrays as launched. -/
abbrev zArg (c : Dev nD) : FVec Ideal S64x512x256 .f32 := m ((c : Thread nD τ).loc main_arg0)
abbrev cArg (c : Dev nD) : FVec Ideal S1024x256 .f32 := m ((c : Thread nD τ).loc main_arg1)

/-! ## What the host leaves for the three input windows -/

/-- The rows: the first argument flattened. -/
theorem V_rows (c : Dev nD) :
    (V m c main_v0 : FVec Ideal S32768x256 .f32) = shapeCast S32768x256 (zArg m c) shapeCasts_S64x512x256_S32768x256 := by
  show StableHlo.after hostOps0 (fun b => m (c, b)) (Proc.devRef .tc main_v0) = _
  after_results
  rfl

/-- The transposed centers. -/
theorem V_ct (c : Dev nD) :
    (V m c main_v2 : FVec Ideal S256x1024 .bf16)
      = truncf .bf16 (transpose S256x1024 [1, 0] (cArg m c) transposes_S1024x256_S256x1024_1_0) bitsLt_bf16_f32 := by
  show StableHlo.after hostOps0 (fun b => m (c, b)) (Proc.devRef .tc main_v2) = _
  after_results

/-- The row of the centers' squared norms. -/
theorem V_csq (c : Dev nD) :
    (V m c main_v6 : FVec Ideal S1x1024 .f32)
      = transpose S1x1024 [1, 0]
          (broadcastInDim S1024x1 ![0] bcast_S1024_S1024x1_0
            (Host.reduceAdd (F := Ideal) (mulf (cArg m c) (cArg m c)) (constant (F := Ideal) S_ .f32 0x00000000#32)
              reducesTo_S1024x256_S1024_d1 h_S_))
          transposes_S1024x1_S1x1024_1_0 := by
  show StableHlo.after hostOps0 (fun b => m (c, b)) (Proc.devRef .tc main_v6) = _
  after_results

/-- Entry (j, k) of the transposed centers is entry (k, j) of the centers. -/
theorem ct_apply (c : Dev nD) (j : Fin 256) (k : Fin 1024) :
    (V m c main_v2 : FVec Ideal S256x1024 .bf16) (ix2 j k) = cArg m c (ix2 k j) := by
  rw [V_ct]
  exact transpose_ix2_apply (cArg m c) transposes_S1024x256_S256x1024_1_0 j k

/-- The host's sum over the 256 entries of a center's row. -/
theorem hostRowSum_apply (y : FVec Ideal S1024x256 .f32) (k : Fin 1024) :
    Host.reduceAdd (F := Ideal) y (constant (F := Ideal) S_ .f32 0x00000000#32) reducesTo_S1024x256_S1024_d1 h_S_ (ix1 k)
      = ∑ j : Fin 256, y (ix2 k j) := by
  simp only [Host.reduceAdd, Ideal.hostReduceAdd_def]
  rw [Ideal.hostReduceAdd_single reducesTo_S1024x256_S1024_d1 (by decide), constant_apply, Ideal.ofBits_zero_f32, zero_add]
  exact Finset.sum_congr rfl fun j _ => congrArg y (funext fun a => Fin.ext (by
    match a with
    | ⟨0, _⟩ => rfl
    | ⟨1, _⟩ => rfl))

/-- Entry k of the row of norms is the sum of the squares of center k. -/
theorem csq_apply (c : Dev nD) (k : Fin 1024) :
    (V m c main_v6 : FVec Ideal S1x1024 .f32) (ix2 (0 : Fin 1) k) = ∑ j : Fin 256, cArg m c (ix2 k j) * cArg m c (ix2 k j) := by
  rw [V_csq]
  refine (transpose_ix2_apply _ transposes_S1024x1_S1x1024_1_0 (0 : Fin 1) k).trans ?_
  refine (broadcastInDim_apply _ bcast_S1024_S1024x1_0 _ (ix2 k (0 : Fin 1)) (ix1 k) (fun a => ?_)).trans ?_
  · match a with
    | ⟨0, _⟩ =>
      show k.val = if (1024 : ℕ) = 1 then 0 else k.val
      rw [if_neg (by decide)]
  · exact hostRowSum_apply (mulf (cArg m c) (cArg m c)) k

/-! ## The windows' blocks -/

/-- The printed index maps over the grid: the rows' and the output's block index is the point, the centers' and
    the norms' block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the rows' block at point t is row 1024·t + p of the flattened rows. -/
theorem rows_blk (c : Dev nD) (t : Fin cfg0.N) (p : Fin 1024) (j : Fin 256) (n : Fin 32768) (hn : n.val = t.val * 1024 + p.val) :
    (iblk m c 0 t : FVec Ideal S1024x256 .f32) (ix2 p j) = (V m c main_v0 : FVec Ideal S32768x256 .f32) (ix2 n j) := by
  obtain ⟨e0, e1, -⟩ := idx_facts t
  unfold iblk
  rw [View.read_apply]
  show V m c main_v0 (((cfg0.win 0).blk t).view.emb (ix2 p j)) = V m c main_v0 (ix2 n j)
  refine congrArg (V m c main_v0) (funext fun a => Fin.ext ?_)
  match a with
  | ⟨0, _⟩ =>
    show win0_0.index t (0 : Fin 2) * 1024 + 1 * p.val = n.val
    rw [e0, hn]; omega
  | ⟨1, _⟩ =>
    show win0_0.index t (1 : Fin 2) * 256 + 1 * j.val = j.val
    rw [e1]; omega

/-- The centers' block at every point is the whole transposed centers. -/
theorem ct_blk (c : Dev nD) (t : Fin cfg0.N) (j : Fin 256) (k : Fin 1024) :
    (iblk m c 1 t : FVec Ideal S256x1024 .bf16) (ix2 j k) = (V m c main_v2 : FVec Ideal S256x1024 .bf16) (ix2 j k) := by
  obtain ⟨-, -, e2, e3, -⟩ := idx_facts t
  unfold iblk
  rw [View.read_apply]
  show V m c main_v2 (((cfg0.win 1).blk t).view.emb (ix2 j k)) = V m c main_v2 (ix2 j k)
  refine congrArg (V m c main_v2) (funext fun a => Fin.ext ?_)
  match a with
  | ⟨0, _⟩ =>
    show win0_1.index t (0 : Fin 2) * 256 + 1 * j.val = j.val
    rw [e2]; omega
  | ⟨1, _⟩ =>
    show win0_1.index t (1 : Fin 2) * 1024 + 1 * k.val = k.val
    rw [e3]; omega

/-- The norms' block at every point is the whole row of norms. -/
theorem csq_blk (c : Dev nD) (t : Fin cfg0.N) (k : Fin 1024) :
    (iblk m c 2 t : FVec Ideal S1x1024 .f32) (ix2 (0 : Fin 1) k) = (V m c main_v6 : FVec Ideal S1x1024 .f32) (ix2 (0 : Fin 1) k) := by
  obtain ⟨-, -, -, -, e4, e5, -⟩ := idx_facts t
  unfold iblk
  rw [View.read_apply]
  show V m c main_v6 (((cfg0.win 2).blk t).view.emb (ix2 (0 : Fin 1) k)) = V m c main_v6 (ix2 (0 : Fin 1) k)
  refine congrArg (V m c main_v6) (funext fun a => Fin.ext ?_)
  match a with
  | ⟨0, _⟩ =>
    show win0_2.index t (0 : Fin 2) * 1 + 1 * 0 = 0
    rw [e4]
  | ⟨1, _⟩ =>
    show win0_2.index t (1 : Fin 2) * 1024 + 1 * k.val = k.val
    rw [e5]; omega

/-! ## What a point writes back, and the array after the run -/

theorem zeros2 : (![0, 0] : Fin 2 → Nat) = fun _ => 0 := funext fun a => by fin_cases a <;> rfl

theorem softRow_congr {z z' : Fin 256 → EReal} {C C' : Fin 1024 → Fin 256 → EReal} {s s' : Fin 1024 → EReal} (q : Fin 1024)
    (hz : z = z') (hC : C = C') (hs : s = s') : softRow z C s q = softRow z' C' s' q := by
  subst hz hC hs; rfl

/-- The output array the run is compared with: the soft assignment of the flattened rows to the centers. -/
abbrev target (c : Dev nD) : FVec Ideal S32768x1024 .f32 := softAssign (V m c main_v0) (cArg m c)

/-- Point t writes back block t of the soft assignment. -/
theorem flushed_eq (c : Dev nD) (t : Fin cfg0.N) :
    (dats m 0 c).flushed 3 t = ((cfg0.win 3).blk t).view.read (Elt Ideal) (target m c) := by
  show (cfg0.win 3).cut (grid0.coords t) ((dats m 0 c).after 3 t) = _
  rw [after0_3]
  unfold out0_3
  rw [View.canon_unit_zero zeros2]
  simp only [View.ld_unit_zero (S := S1024x256) zeros2, View.ld_unit_zero (S := S256x1024) zeros2,
    View.ld_unit_zero (S := S1x1024) zeros2]
  funext y
  obtain ⟨p, q, rfl⟩ : ∃ (p q : Fin 1024), y = ix2 p q := ⟨y 0, y 1, eq_ix2 y⟩
  obtain ⟨-, -, -, -, -, -, e6, e7⟩ := idx_facts t
  have ht : t.val < 32 := lt_of_lt_of_eq t.isLt (show cfg0.N = 32 from N_0)
  show k0_pay1 (F := Ideal) (iblk m c 0 t) (iblk m c 1 t) (iblk m c 2 t) (ix2 p q)
    = target m c (((cfg0.win 3).blk t).view.emb (ix2 p q))
  have hemb : ((cfg0.win 3).blk t).view.emb (ix2 p q) = ix2 (⟨t.val * 1024 + p.val, by omega⟩ : Fin 32768) q :=
    funext fun a => Fin.ext (by
      match a with
      | ⟨0, _⟩ =>
        show win0_3.index t (0 : Fin 2) * 1024 + 1 * p.val = t.val * 1024 + p.val
        rw [e6]; omega
      | ⟨1, _⟩ =>
        show win0_3.index t (1 : Fin 2) * 1024 + 1 * q.val = q.val
        rw [e7]; omega)
  rw [hemb]
  refine (Kern.pay_apply _ _ _ p q).trans ?_
  exact softRow_congr q (funext fun j => rows_blk m c t p j _ rfl)
    (funext fun k => funext fun j => (ct_blk m c t j k).trans (ct_apply m c j k))
    (funext fun k => (csq_blk m c t k).trans (csq_apply m c k))

/-- An index of the output is in point t's block iff its row is among the point's 1024 rows. -/
theorem mem_blk (t : Fin cfg0.N) (i : S32768x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v7).slice (win0_3.rect t)).set ↔ _
  rw [View.set_slice_whole, Rect.mem_set_unit]
  exact Iff.rfl

/-- Every index of the output is in the block of the point its row falls in. -/
theorem cover (i : S32768x1024.Idx) : ∃ t : Fin cfg0.N, (cfg0.win 3).flush t = true ∧ i ∈ ((cfg0.win 3).blk t).view.set := by
  have hi0 : (i 0).val < 32768 := (i 0).isLt
  have hi1 : (i 1).val < 1024 := (i 1).isLt
  have hN : cfg0.N = 32 := N_0
  refine ⟨⟨(i 0).val / 1024, by rw [hN]; omega⟩, flush0_3 _, ?_⟩
  rw [mem_blk]
  obtain ⟨-, -, -, -, -, -, e6, e7⟩ := idx_facts ⟨(i 0).val / 1024, by rw [hN]; omega⟩
  intro a
  match a with
  | ⟨0, _⟩ =>
    show win0_3.index _ (0 : Fin 2) * 1024 ≤ (i 0).val ∧ (i 0).val < win0_3.index _ (0 : Fin 2) * 1024 + 1024
    rw [e6]
    show (i 0).val / 1024 * 1024 ≤ (i 0).val ∧ (i 0).val < (i 0).val / 1024 * 1024 + 1024
    omega
  | ⟨1, _⟩ =>
    show win0_3.index _ (1 : Fin 2) * 1024 ≤ (i 1).val ∧ (i 1).val < win0_3.index _ (1 : Fin 2) * 1024 + 1024
    rw [e7]
    omega

/-- The output array after the run is the soft assignment. -/
theorem final (c : Dev nD) : (dats m 0 c).arrAt 3 cfg0.N = target m c :=
  (dats m 0 c).arrAt_eq_of_cover 3 (target m c) (fun t _ => flushed_eq m c t) cover

end Cert.Som.KValue

end
-- ==== Proof.KernelRun.lean ====
/-
  The kernel program's run, read: after the grid the host reshapes the 32768 × 1024 output to 64 × 512 × 1024, so
  the result is that reshape of the soft assignment of the flattened rows, and the two arguments end as launched.
-/
import proofs.«147267_j32899449487560_2_alg».proof.Proof.KernelValue

noncomputable section

open Idealize.ShloMosaic Idealize.ShloMosaic.TcCoe Idealize.SL.Sem Idealize.ShloMosaic.ValueIdx
open Idealize.ShloMosaic.Pipeline (Dat)

namespace Cert.Som.KValue

open Cert.KernelIdeal Cert.KernelIdeal.Gen Cert.Som

variable (m : (ℓ : Loc nD τ sig) → Buf (Elt Ideal) ℓ) (ρ : Dev nD → PrngReg)

/-- The result as a function of the two arguments: the soft assignment of the flattened rows, reshaped. -/
abbrev result (c : Dev nD) : FVec Ideal S64x512x1024 .f32 :=
  shapeCast S64x512x1024
    (softAssign (shapeCast S32768x256 (zArg m c) shapeCasts_S64x512x256_S32768x256) (cArg m c))
    shapeCasts_S32768x1024_S64x512x1024

/-- What the host's last line leaves in the result buffer: the reshape of the output array after the grid. -/
theorem tail_eq (c : Dev nD) :
    (Pipeline.afterTail₀ cfgs (dats m) 0 (V0 m) [hostOps1] c main_v8 : FVec Ideal S64x512x1024 .f32) = result m c := by
  unfold Pipeline.afterTail₀
  show StableHlo.after hostOps1 _ (Proc.devRef .tc main_v8) = _
  after_results
  have hW : Pipeline.withArrays (cfgs 0).spec c (V0 m c) (fun w => (dats m 0 c).arrAt w (cfgs 0).N) (Proc.tc.devRef main_v7)
      = softAssign (shapeCast S32768x256 (zArg m c) shapeCasts_S64x512x256_S32768x256) (cArg m c) :=
    ((Pipeline.withArrays_arr spec0 launch0.win.arr_inj c _ _ 3).trans (final m c)).trans (by
      show softAssign (V m c main_v0) (cArg m c) = _
      rw [V_rows])
  rw [hW]
  rfl

/-- Every weakly fair execution of the kernel program ends with the result buffer at `result` and the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v8 (Pipeline.mem_restRefs_of main_v8 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.Som.KValue

end
-- ==== Proof.lean ====
/-
  The soft assignment of 32768 rows to 1024 centers under a Student-t similarity, two ways.

  Both programs flatten z to 32768 rows of 256, form for every row n and center q the squared distance
  d = max (‖z_n‖² + ‖c_q‖² - 2 · ⟨z_n, c_q⟩, 0), the similarity (1 + d/10)^(-11/2), and divide each row of
  similarities by its sum over the 1024 centers; both reshape the 32768 × 1024 result to 64 × 512 × 1024.

  One program computes the inner products as a matrix product against the transposed centers, block of 1024 rows
  by block, multiplies d by the named reciprocal 1/10 and takes the reciprocal square root of the eleventh power
  of u = 1 + d/10, built as u⁸ · u² · u; the other contracts the rows with the centers directly, divides d by 10
  and raises to the real power -11/2.  On the extended reals sums may be taken in any order, a change of float
  format is the identity, division by 10 is multiplication by 1/10, and for d ≥ 0 — which a maximum with zero
  always is, +∞ included — the two forms of the similarity agree.  So the two results are equal element by element,
  whatever the inputs hold; the precondition is not used.
-/
import proofs.«147267_j32899449487560_2_alg».proof.Defs
import proofs.«147267_j32899449487560_2_alg».proof.Proof.Gen.Kernel
import proofs.«147267_j32899449487560_2_alg».proof.Proof.Gen.Kernel.Skeleton
import proofs.«147267_j32899449487560_2_alg».proof.Proof.Gen.Kernel.Launch
import proofs.«147267_j32899449487560_2_alg».proof.Proof.Gen.Kernel.Points
import proofs.«147267_j32899449487560_2_alg».proof.Proof.Gen.Kernel.Frame
import proofs.«147267_j32899449487560_2_alg».proof.Proof.Gen.KernelIdeal
import proofs.«147267_j32899449487560_2_alg».proof.Proof.Gen.KernelIdeal.Skeleton
import proofs.«147267_j32899449487560_2_alg».proof.Proof.Gen.KernelIdeal.Launch
import proofs.«147267_j32899449487560_2_alg».proof.Proof.Gen.KernelIdeal.Points
import proofs.«147267_j32899449487560_2_alg».proof.Proof.Gen.KernelIdeal.Frame
import proofs.«147267_j32899449487560_2_alg».proof.Proof.Gen.ReferenceIdeal
import proofs.«147267_j32899449487560_2_alg».proof.Proof.Gen.Pre_finite_inputs
import proofs.«147267_j32899449487560_2_alg».proof.Proof.Gen.ReferenceIdeal.Run
import proofs.«147267_j32899449487560_2_alg».proof.Proof.Gen.ReferenceIdeal.Read
import proofs.«147267_j32899449487560_2_alg».proof.Proof.RefValue
import proofs.«147267_j32899449487560_2_alg».proof.Proof.KernelRun
import Idealize.ShloMosaic.Adequacy
import Idealize.ShloMosaic.Init

noncomputable section

namespace Cert.Proof

open Idealize.ShloMosaic Idealize.SL.Sem

/-- The word-level kernel program terminates without a fault and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: the kernel's literal 0.1 is read as the rational 1/10. -/
theorem preserves : Cert.preserves_Kernel_KernelIdeal :=
  IdealRules.named_const.statement Cert.KernelIdeal.κ "inv_10" .f32 0x3DCCCCCD#32 ((1 / 10 : ℝ) : EReal) rfl

/-- Both runs end with the result buffer at the reshaped soft assignment of the flattened rows: the kernel's by
    its blocks of rows tiling the output, the reference's by reading its operations at an index. -/
theorem algebraic : Cert.algebraic_KernelIdeal_ReferenceIdeal := by
  intro m ρ m' ρ' _ hagree
  refine ⟨fun c => Cert.Som.KValue.result m c, Cert.Som.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2]
  unfold Cert.ReferenceIdeal.Read.val_main_v26
  rw [Cert.Som.Ref.softAssign_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
